-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x128x64 : Shape := ⟨4, ![4, 3, 128, 64]⟩
abbrev S4x3x8192 : Shape := ⟨3, ![4, 3, 8192]⟩
abbrev S_ : Shape := ⟨0, ![]⟩

class Facts : Prop where
  bcast_S_S4x3x128x64 : S_.BroadcastsInDim S4x3x128x64 (![] : Fin 0 → Fin S4x3x128x64.rank)
  reducesTo_S4x3x128x64_S_d0_1_2_3 : S4x3x128x64.ReducesTo [0, 1, 2, 3] S_
  h_S_ : 0 < S_.numel
  bcast_S_S4x3x8192 : S_.BroadcastsInDim S4x3x8192 (![] : Fin 0 → Fin S4x3x8192.rank)
  reducesTo_S4x3x8192_S_d0_1_2 : S4x3x8192.ReducesTo [0, 1, 2] S_

variable [Facts]

def fn {F : FTy → Type} [FloatOps F] (main_arg0 : FVec F S4x3x128x64 .f32) (main_arg1 : FVec F S4x3x8192 .f32) : IVec S_ 1 :=
  let main_v0 : FVec F S4x3x128x64 .f32 := Host.absf main_arg0
  let main_cst : FVec F S_ .f32 := constant S_ .f32 0x7F800000#32
  let main_v1 : FVec F S4x3x128x64 .f32 := broadcastInDim S4x3x128x64 ![] bcast_S_S4x3x128x64 main_cst
  let main_v2 : IVec S4x3x128x64 1 := cmpf .olt main_v0 main_v1
  let main_c : IVec S_ 1 := constantI S_ 1 1#1
  let main_v3 : IVec S_ 1 := (fun x v => Host.reduce IntOp.andi x v reducesTo_S4x3x128x64_S_d0_1_2_3 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x128x64 : Shape := ⟨4, ![4, 3, 128, 64]⟩
abbrev S4x3x8192 : Shape := ⟨3, ![4, 3, 8192]⟩
abbrev S4x8192x3 : Shape := ⟨3, ![4, 8192, 3]⟩
abbrev S4x8192x1 : Shape := ⟨3, ![4, 8192, 1]⟩
abbrev S1x2048x3 : Shape := ⟨3, ![1, 2048, 3]⟩
abbrev S1x3x1024 : Shape := ⟨3, ![1, 3, 1024]⟩
abbrev S1x2048x1 : Shape := ⟨3, ![1, 2048, 1]⟩
abbrev S2048x1 : Shape := ⟨2, ![2048, 1]⟩
abbrev S2048x3 : Shape := ⟨2, ![2048, 3]⟩
abbrev S3x1024 : Shape := ⟨2, ![3, 1024]⟩
abbrev S2048 : Shape := ⟨1, ![2048]⟩
abbrev S1024 : Shape := ⟨1, ![1024]⟩
abbrev S1x1024 : Shape := ⟨2, ![1, 1024]⟩
abbrev S2048x1024 : Shape := ⟨2, ![2048, 1024]⟩
abbrev S4x8192 : Shape := ⟨2, ![4, 8192]⟩
abbrev S_ : Shape := ⟨0, ![]⟩
abbrev S4 : Shape := ⟨1, ![4]⟩

abbrev nBuf : Space → Nat
  | .hbm => 18
  | .vmem => 9
  | .smem => 0
  | _ => 0

abbrev bufTy : (tb : Table) → Fin (tcTables nBuf tb) → BufTy
  | .hbm, ⟨0, _⟩ => ⟨S4x3x128x64, .f32⟩
  | .hbm, ⟨1, _⟩ => ⟨S4x3x8192, .f32⟩
  | .hbm, ⟨2, _⟩ => ⟨S4x3x8192, .f32⟩
  | .hbm, ⟨3, _⟩ => ⟨S4x8192x3, .f32⟩
  | .hbm, ⟨4, _⟩ => ⟨S4x8192x1, .f32⟩
  | .hbm, ⟨5, _⟩ => ⟨S4x8192x1, .f32⟩
  | .hbm, ⟨6, _⟩ => ⟨S4x8192, .f32⟩
  | .hbm, ⟨7, _⟩ => ⟨S4x8192, .f32⟩
  | .hbm, ⟨8, _⟩ => ⟨S4x8192, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S2048x1, .f32⟩
  | _, _ => ⟨S4x3x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x3x128x64_S4x3x8192 : S4x3x128x64.ShapeCasts S4x3x8192
  transposes_S4x3x8192_S4x8192x3_0_2_1 : S4x3x8192.Transposes [0, 2, 1] S4x8192x3
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S2048x3_S2048 : S2048x3.Reduces [1] S2048
  shapeCasts_S2048_S2048x1 : S2048.ShapeCasts S2048x1
  reduces_S3x1024_S1024 : S3x1024.Reduces [0] S1024
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  natLt_1_32 : 1 < 32
  shapeCasts_S4x8192x1_S4x8192 : S4x8192x1.ShapeCasts S4x8192
  reducesTo_S4x8192_S4_d1 : S4x8192.ReducesTo [1] S4
  h_S_ : 0 < S_.numel
  reducesTo_S4_S_d0 : S4.ReducesTo [0] S_
  dot_S2048x3_S3x1024_S2048x1024_1_0_0_1_n_n_wf : DotDims.WF S2048x3 S3x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x8192x3.size a
  hwx0_0 : ∀ i : grid0.Coords, EltTy.bits .f32 = 32 ∨ (Rect.block (s := S4x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x8192x1.size a
  hwx0_2 : ∀ i : grid0.Coords, EltTy.bits .f32 = 32 ∨ (Rect.block (s := S4x8192x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S4x8192x1.size a
  hwx0_3 : ∀ i : grid0.Coords, EltTy.bits .f32 = 32 ∨ (Rect.block (s := S4x8192x1) S1x2048x1.size (cc0_transform_3 i) (hinb0_3 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf

abbrev win0_0 : Pipeline.Window sig grid0 :=
  Pipeline.Window.ofSpec (Memref.whole main_v1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x128x64 : Shape := ⟨4, ![4, 3, 128, 64]⟩
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x3x128x64, .f32⟩
  | .hbm, ⟨1, _⟩ => ⟨S4x3x8192, .f32⟩
  | .hbm, ⟨2, _⟩ => ⟨S4x3x8192, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x3x8192, .f32⟩
  | .hbm, ⟨7, _⟩ => ⟨S4x3x8192, .i1⟩
  | .hbm, ⟨8, _⟩ => ⟨S_, .i1⟩
  | .hbm, ⟨9, _⟩ => ⟨S4x8192, .i1⟩
  | .hbm, ⟨10, _⟩ => ⟨S4x8192, .i1⟩
  | .hbm, ⟨11, _⟩ => ⟨S4x8192x3, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x3, .f32⟩
  | .hbm, ⟨16, _⟩ => ⟨S_, .f32⟩
  | .hbm, ⟨17, _⟩ => ⟨S4x8192, .f32⟩
  | .hbm, ⟨18, _⟩ => ⟨S4x1x8192, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192x8192, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S4x8192, .f32⟩
  | .hbm, ⟨30, _⟩ => ⟨S4x8192, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x3x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S4x3x128x64_S4x3x8192 : S4x3x128x64.ShapeCasts S4x3x8192
  transposes_S4x3x8192_S4x8192x3_0_2_1 : S4x3x8192.Transposes [0, 2, 1] S4x8192x3
  bcast_S_S4x3x8192 : S_.BroadcastsInDim S4x3x8192 (![] : Fin 0 → Fin S4x3x8192.rank)
  reducesTo_S4x3x8192_S4x8192_d1 : S4x3x8192.ReducesTo [1] S4x8192
  h_S_ : 0 < S_.numel
  reducesTo_S4x8192x3_S4x8192_d2 : S4x8192x3.ReducesTo [2] S4x8192
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What each case of the body leaves behind, as a value.

  The body has three cases. At the first point of a run it resets the column of running minima to +∞ and
  then takes the point's step from that; at a middle point it takes the step from what the point before
  left; at the last point it takes the step and then writes out the column (as the block of nearest
  squared distances) and the flags. Each buffer ends with one store covering it, so what it holds is that
  store's value, read with the loads put back: the step applied to the point's two input blocks and to
  the running minima it found.
-/
import proofs.«137906_j28432683500146_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point of a run: the step taken from the reset column. -/
theorem scratch_first (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (hc0 : cond0_0 i) (hc1 : ¬cond0_1 i)
    (x0 : Vec F S1x2048x3 .f32) (x1 : Vec F S1x3x1024 .f32) :
    sout0_A_0 c i arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg3 harg3 arg4 harg4 arg5 harg5 arg6 harg6 arg7 harg7 hc0 hc1 x0 x1)]
  unfold kernelRun0_A
  dsimp only
  sl_unfold_words
  rw [View.canon_cons_unit_zero (S := S2048x1) hz2, View.readCov_unit_zero (S := S2048x1) _ hz2]
  simp only [View.readAt_eq_ld, harg3.read_unread, harg4.read_unread, harg7.read_unread, View.ld_unit_zero (S := S1x2048x3) hz3, View.ld_unit_zero (S := S1x3x1024) hz3, View.ld_unit_zero (S := S2048x1) hz2]

/-- At a middle point: the step taken from the column the point before left. -/
theorem scratch_middle (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (hc0 : ¬cond0_0 i) (hc1 : ¬cond0_1 i)
    (x0 : Vec F S1x2048x3 .f32) (x1 : Vec F S1x3x1024 .f32) (xs0 : Vec F S2048x1 .f32) :
    sout0_B_0 c i arg3 harg3 arg4 harg4 arg5 harg5 arg6 harg6 arg7 harg7 hc0 hc1 x0 x1 xs0 = k0_pay4 x0 x1 xs0 := by
  unfold sout0_B_0
  rw [View.read_writes_eq_canon _ _ _ (scover0_B_0 c i arg3 harg3 arg4 harg4 arg5 harg5 arg6 harg6 arg7 harg7 hc0 hc1 x0 x1 xs0)]
  unfold kernelRun0_B
  dsimp only
  rw [View.canon_unit_zero (S := S2048x1) hz2]
  simp only [View.readAt_eq_ld, harg3.read_unread, harg4.read_unread, harg7.read_unread, View.ld_unit_zero (S := S1x2048x3) hz3, View.ld_unit_zero (S := S1x3x1024) hz3, View.ld_unit_zero (S := S2048x1) hz2]

/-- At the last point: the same step. -/
theorem scratch_last (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (hc0 : ¬cond0_0 i) (hc1 : cond0_1 i)
    (x0 : Vec F S1x2048x3 .f32) (x1 : Vec F S1x3x1024 .f32) (xs0 : Vec F S2048x1 .f32) :
    sout0_C_0 c i arg3 harg3 arg4 harg4 arg5 harg5 arg6 harg6 arg7 harg7 hc0 hc1 x0 x1 xs0 = k0_pay4 x0 x1 xs0 := by
  unfold sout0_C_0
  rw [View.read_writes_eq_canon _ _ _ (scover0_C_0 c i arg3 harg3 arg4 harg4 arg5 harg5 arg6 harg6 arg7 harg7 hc0 hc1 x0 x1 xs0)]
  unfold kernelRun0_C
  dsimp only
  sl_unfold_words
  rw [View.canon_unit_zero (S := S2048x1) hz2]
  simp only [View.readAt_eq_ld, harg3.read_unread, harg4.read_unread, harg7.read_unread, View.ld_unit_zero (S := S1x2048x3) hz3, View.ld_unit_zero (S := S1x3x1024) hz3, View.ld_unit_zero (S := S2048x1) hz2]

/-- At the last point the block of nearest squared distances is the column after the step, written out. -/
theorem dist_last (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (hc0 : ¬cond0_0 i) (hc1 : cond0_1 i)
    (x0 : Vec F S1x2048x3 .f32) (x1 : Vec F S1x3x1024 .f32) (xs0 : Vec F S2048x1 .f32) :
    out0_C_2 c i arg3 harg3 arg4 harg4 arg5 harg5 arg6 harg6 arg7 harg7 hc0 hc1 x0 x1 xs0 = k0_pay5 (k0_pay4 x0 x1 xs0) := by
  unfold out0_C_2
  rw [View.read_writes_eq_canon _ _ _ (cover0_C_2 c i arg3 harg3 arg4 harg4 arg5 harg5 arg6 harg6 arg7 harg7 hc0 hc1 x0 x1 xs0)]
  unfold kernelRun0_C
  dsimp only
  sl_unfold_words
  rw [View.canon_unit_zero (S := S1x2048x1) hz3, View.readCov_unit_zero (S := S2048x1) _ hz2]
  simp only [View.readAt_eq_ld, harg3.read_unread, harg4.read_unread, harg7.read_unread, View.ld_unit_zero (S := S1x2048x3) hz3, View.ld_unit_zero (S := S1x3x1024) hz3, View.ld_unit_zero (S := S2048x1) hz2]

/-- At the last point the block of flags is computed from the point's tile alone. -/
theorem flag_last (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (hc0 : ¬cond0_0 i) (hc1 : cond0_1 i)
    (x0 : Vec F S1x2048x3 .f32) (x1 : Vec F S1x3x1024 .f32) (xs0 : Vec F S2048x1 .f32) :
    out0_C_3 c i arg3 harg3 arg4 harg4 arg5 harg5 arg6 harg6 arg7 harg7 hc0 hc1 x0 x1 xs0 = k0_pay6 x0 := by
  unfold out0_C_3
  rw [View.read_writes_eq_canon _ _ _ (cover0_C_3 c i arg3 harg3 arg4 harg4 arg5 harg5 arg6 harg6 arg7 harg7 hc0 hc1 x0 x1 xs0)]
  unfold kernelRun0_C
  dsimp only
  rw [View.canon_unit_zero (S := S1x2048x1) hz3]
  simp only [View.readAt_eq_ld, harg3.read_unread, harg4.read_unread, harg7.read_unread, View.ld_unit_zero (S := S1x2048x3) hz3, View.ld_unit_zero (S := S1x3x1024) hz3, View.ld_unit_zero (S := S2048x1) hz2]

end Cert.KernelIdeal.Pieces

end
-- ==== Proof.Spec.lean ====
/-
  The common value of both programs, as a function of two arrays: the point cloud laid out
  [batch, point, coordinate] and the mesh vertices laid out [batch, coordinate, vertex], over the
  extended reals.

  For a batch `b`, a point `i` and a vertex `j` the squared distance is written the way both programs
  write it, |p|² + |v|² − 2·(p · v), each of the three a sum over the three coordinates. A point's
  nearest squared distance is the minimum of these over all 8192 vertices, folded from +∞. A point counts
  as present when it is not the origin; both programs then average the nearest distances of the points
  present, batch by batch, and average the four batch means.

  The minimum is only ever used through its universal property (`le_nearest_iff`): a number is below
  it exactly when it is below +∞ and below every vertex's squared distance. That is what lets a running
  minimum over eight tiles of 1024 vertices be compared with one minimum over 8192, and it never asks
  what the words for +∞ and 2 denote: the same words stand on both sides.
-/
import Idealize.ShloMosaic.PureOps
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The point cloud: [batch, point, coordinate]. -/
abbrev Points := (⟨3, ![4, 8192, 3]⟩ : Shape).Idx → EReal
/-- The mesh vertices: [batch, coordinate, vertex]. -/
abbrev Verts := (⟨3, ![4, 3, 8192]⟩ : Shape).Idx → EReal

/-- The word both programs start a minimum from (+∞), as the extended real it denotes. -/
def posInf : EReal := Ideal.ofBits .f32 0x7F800000#32
/-- The word both programs scale the inner product by (2.0), as the extended real it denotes. -/
def two : EReal := Ideal.ofBits .f32 0x40000000#32

/-- |p|² of point `i` of batch `b`. -/
def sqP (P : Points) (b : Fin 4) (i : Fin 8192) : EReal := ∑ k : Fin 3, P (ix3 b i k) * P (ix3 b i k)
/-- |v|² of vertex `j` of batch `b`. -/
def sqV (V : Verts) (b : Fin 4) (j : Fin 8192) : EReal := ∑ k : Fin 3, V (ix3 b k j) * V (ix3 b k j)
/-- p · v. -/
def dotPV (P : Points) (V : Verts) (b : Fin 4) (i j : Fin 8192) : EReal := ∑ k : Fin 3, P (ix3 b i k) * V (ix3 b k j)
/-- The squared distance from point `i` to vertex `j`, as both programs spell it. -/
def sqDist (P : Points) (V : Verts) (b : Fin 4) (i j : Fin 8192) : EReal :=
  (sqP P b i + sqV V b j) - two * dotPV P V b i j

/-- The squared distance from point `i` to its nearest vertex. -/
def nearest (P : Points) (V : Verts) (b : Fin 4) (i : Fin 8192) : EReal :=
  (Finset.univ : Finset (Fin 8192)).fold min posInf (fun j => sqDist P V b i j)

/-- A number is below the minimum exactly when it is below its start and below every term. -/
theorem le_nearest_iff (P : Points) (V : Verts) (b : Fin 4) (i : Fin 8192) (z : EReal) :
    z ≤ nearest P V b i ↔ z ≤ posInf ∧ ∀ j : Fin 8192, z ≤ sqDist P V b i j := by
  unfold nearest
  rw [Finset.le_fold_min]
  exact and_congr_right fun _ => ⟨fun h j => h j (Finset.mem_univ j), fun h j _ => h j⟩

/-- Two extended reals with the same lower bounds are equal. -/
theorem eq_of_forall_le_iff' {a b : EReal} (h : ∀ z : EReal, z ≤ a ↔ z ≤ b) : a = b :=
  le_antisymm ((h a).mp le_rfl) ((h b).mpr le_rfl)

/-- 1 where the point is not the origin, 0 where it is — decided by |p|². -/
def present (P : Points) (b : Fin 4) (i : Fin 8192) : EReal := if sqP P b i = 0 then 0 else 1

/-! ## A sum of squares vanishes only when every term does -/

theorem mul_self_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

theorem mul_self_eq_zero' (x : EReal) : x * x = 0 ↔ x = 0 := by
  induction x using EReal.rec with
  | bot => rw [EReal.bot_mul_bot]; simp
  | top => rw [EReal.top_mul_top]
  | coe r =>
    rw [← EReal.coe_mul, ← EReal.coe_zero, EReal.coe_eq_coe_iff, EReal.coe_eq_coe_iff]
    exact mul_self_eq_zero

/-- |p|² = 0 exactly when the three coordinates are 0. -/
theorem sqP_eq_zero_iff (P : Points) (b : Fin 4) (i : Fin 8192) :
    sqP P b i = 0 ↔ ∀ k : Fin 3, P (ix3 b i k) = 0 := by
  unfold sqP
  rw [Finset.sum_eq_zero_iff_of_nonneg (fun k _ => mul_self_nonneg' _)]
  exact ⟨fun h k => (mul_self_eq_zero' _).mp (h k (Finset.mem_univ k)), fun h k _ => (mul_self_eq_zero' _).mpr (h k)⟩

/-! ## What both programs do with the two [4, 8192] arrays -/

/-- The mean, over the batches, of each batch's mean nearest distance over the points present: the same
    six host operations in both programs, applied to the array of nearest distances and the array of
    presence flags. Never opened: the two programs meet at its arguments. -/
def meanOfMeans (h1 : (⟨2, ![4, 8192]⟩ : Shape).ReducesTo [1] ⟨1, ![4]⟩) (h0 : 0 < (⟨0, ![]⟩ : Shape).numel)
    (h2 : (⟨1, ![4]⟩ : Shape).ReducesTo [0] ⟨0, ![]⟩)
    (dist valid : FVec Ideal ⟨2, ![4, 8192]⟩ .f32) : FVec Ideal ⟨0, ![]⟩ .f32 :=
  Host.divf (F := Ideal)
    (Host.reduceAdd (F := Ideal)
      (Host.divf (F := Ideal)
        (Host.reduceAdd (F := Ideal) (mulf (F := Ideal) dist valid) (constant (F := Ideal) ⟨0, ![]⟩ .f32 0x00000000#32) h1 h0)
        (Host.reduceAdd (F := Ideal) valid (constant (F := Ideal) ⟨0, ![]⟩ .f32 0x00000000#32) h1 h0))
      (constant (F := Ideal) ⟨0, ![]⟩ .f32 0x00000000#32) h2 h0)
    (constant (F := Ideal) ⟨0, ![]⟩ .f32 0x40800000#32)

end Cert.Chamfer

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibReduce.lean ====
/-
  Two reductions over ONE axis read at an index of the result.

  A minimum, on the extended reals: the vector unit's and the host's both are the fold of `min`, from
  the starting value, over that axis's coordinates — so a number is below the result exactly when it is
  below the start and below every term.

  A conjunction of one-bit words on the host: the result is 1 exactly when the start is 1 and every word
  that reduces into it is 1.
-/
import Idealize.ShloMosaic.PureOps.Ideal.Laws
import Idealize.ShloMosaic.Lib.ReduceAll

namespace Idealize.ShloMosaic

namespace Ideal

variable {φ : FTy}

/-- A float `vector.multi_reduction <minimumf>` over one axis, read on the extended reals: the fold of
    `min` from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's `stablehlo.reduce` by `minimum` over one axis, read on the extended reals: the same fold,
    from the initial value's one element. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Ideal

namespace IntOp

/-- A left fold by `and` over one-bit words, started at 1 over words that are all 1, is 1. -/
theorem foldl_andi_of_all_one {ι : Type} (f : ι → BitVec 1) :
    ∀ (l : List ι) (init : BitVec 1), init = 1#1 → (∀ n ∈ l, f n = 1#1) → l.foldl (fun r n => andi r (f n)) init = 1#1
  | [], _, hi, _ => hi
  | a :: l, init, hi, hl =>
    foldl_andi_of_all_one f l _ (andi_eq_one.2 ⟨hi, hl a List.mem_cons_self⟩) fun n hn => hl n (List.mem_cons_of_mem _ hn)

end IntOp

namespace Host

variable {s t u : Shape} {axes : List (Fin s.rank)}

/-- A `stablehlo.reduce` by `and` is 1 at `j` exactly when its initial value is 1 and the operand is 1 at
    every index that reduces into `j`. -/
theorem reduce_andi_eq_one_iff (x : s.Idx → BitVec 1) (init : u.Idx → BitVec 1) (h : s.ReducesTo axes t) (hu : 0 < u.numel)
    (j : t.Idx) :
    Host.reduce IntOp.andi x init h hu j = 1#1 ↔ init (Shape.Idx.first hu) = 1#1 ∧ ∀ i : s.Idx, h.drop i = j → x i = 1#1 := by
  constructor
  · intro e
    refine ⟨?_, fun i hi => reduce_andi_eq_one x init h hu j e i hi⟩
    rw [Host.reduce_eq_foldl] at e
    exact (IntOp.foldl_andi_eq_one x _ _ e).1
  · rintro ⟨hi, hall⟩
    rw [Host.reduce_eq_foldl]
    refine IntOp.foldl_andi_of_all_one x _ _ hi fun n hn => hall n ?_
    have := (List.mem_filter.1 hn).2
    simpa using this

/-- Over ONE axis: the result is 1 at `j` exactly when the initial value is 1 and the operand is 1 at `j` with
    every coordinate of that axis put back. -/
theorem reduce_andi_eq_one_iff_single {a : Fin s.rank} (x : s.Idx → BitVec 1) (init : u.Idx → BitVec 1)
    (h' : s.ReducesTo [a] t) (h : s.Reduces [a] t) (hu : 0 < u.numel) (j : t.Idx) :
    Host.reduce IntOp.andi x init h' hu j = 1#1
      ↔ init (Shape.Idx.first hu) = 1#1 ∧ ∀ k : Fin (s.size a), x (h.lift j k) = 1#1 := by
  rw [reduce_andi_eq_one_iff, Shape.ReducesTo.drop_eq_drop h' h]
  refine and_congr_right fun _ => ⟨fun H k => H _ (h.drop_lift j k), fun H i hi => ?_⟩
  rw [← h.lift_drop i, hi]
  exact H (i a)

end Host

end Idealize.ShloMosaic
-- ==== Proof.Tile.lean ====
/-
  One grid point's arithmetic, read at an index.

  At a grid point the body holds a tile of 2048 points (a [1, 2048, 3] block: point, coordinate) and a tile
  of 1024 vertices (a [1, 3, 1024] block: coordinate, vertex), and a column of 2048 running minima. For
  row `r` and column `c` of the tile it forms |p_r|² + |v_c|² − 2·(p_r · v_c), takes the row's minimum over
  the 1024 columns from +∞, and stores the smaller of that and the running minimum. So a number is below
  the new running minimum of row `r` exactly when it is below the old one, below +∞, and below every
  entry of row `r` of the tile (`le_runMin_iff`).

  At the last point of a run the body also writes the running minima out, and a flag per point: 1 where
  |p_r|² is not 0, else 0.
-/
import proofs.«137906_j28432683500146_1_alg».proof.Proof.Gen.KernelIdeal.Skeleton
import proofs.«137906_j28432683500146_1_alg».proof.Proof.Spec
import proofs.«137906_j28432683500146_1_alg».proof.Proof.LibColumn
import proofs.«137906_j28432683500146_1_alg».proof.Proof.LibReduce
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Chamfer

/-- |p_r|² of row `r` of a tile of points. -/
def rowSq (x0 : FVec Ideal S1x2048x3 .f32) (r : Fin 2048) : EReal :=
  ∑ k : Fin 3, x0 (ix3 (0 : Fin 1) r k) * x0 (ix3 (0 : Fin 1) r k)
/-- |v_c|² of column `c` of a tile of vertices. -/
def colSq (x1 : FVec Ideal S1x3x1024 .f32) (c : Fin 1024) : EReal :=
  ∑ k : Fin 3, x1 (ix3 (0 : Fin 1) k c) * x1 (ix3 (0 : Fin 1) k c)
/-- p_r · v_c. -/
def rowCol (x0 : FVec Ideal S1x2048x3 .f32) (x1 : FVec Ideal S1x3x1024 .f32) (r : Fin 2048) (c : Fin 1024) : EReal :=
  ∑ k : Fin 3, x0 (ix3 (0 : Fin 1) r k) * x1 (ix3 (0 : Fin 1) k c)
/-- Entry (r, c) of the tile of squared distances. -/
def tileSq (x0 : FVec Ideal S1x2048x3 .f32) (x1 : FVec Ideal S1x3x1024 .f32) (r : Fin 2048) (c : Fin 1024) : EReal :=
  (rowSq x0 r + colSq x1 c) - two * rowCol x0 x1 r c

/-! ## The three reductions of the body, over any operand -/

/-- A [2048, 3] matrix summed along its rows and kept as a column: at (r, 0) the sum of row `r`. -/
theorem rowSum_apply (v : FVec Ideal S2048x3 .f32) (r : Fin 2048) (u : Fin 1) :
    shapeCast S2048x1 (multiReduction (F := Ideal) .add [1] S2048 v 0x00000000#32 reduces_S2048x3_S2048 (.inl rfl) rfl)
      shapeCasts_S2048_S2048x1 (ix2 r u) = ∑ k : Fin 3, v (ix2 r k) := by
  refine (shapeCast_a_a1_apply _ _ r u).trans ?_
  refine (Ideal.multiReduction_add_single v 0x00000000#32 reduces_S2048x3_S2048 (.inl rfl) rfl (ix1 r)).trans ?_
  exact Finset.sum_congr rfl fun k _ => congrArg v
    (funext fun a => Fin.ext (by match a with | ⟨0, _⟩ => rfl | ⟨1, _⟩ => rfl))

/-- A [3, 1024] matrix summed down its columns and kept as a row: at (0, c) the sum of column `c`. -/
theorem colSum_apply (v : FVec Ideal S3x1024 .f32) (c : Fin 1024) (u : Fin 1) :
    shapeCast S1x1024 (multiReduction (F := Ideal) .add [0] S1024 v 0x00000000#32 reduces_S3x1024_S1024 (.inl rfl) rfl)
      shapeCasts_S1024_S1x1024 (ix2 u c) = ∑ k : Fin 3, v (ix2 k c) := by
  refine (shapeCast_a_1a_apply _ _ u c).trans ?_
  refine (Ideal.multiReduction_add_single v 0x00000000#32 reduces_S3x1024_S1024 (.inl rfl) rfl (ix1 c)).trans ?_
  exact Finset.sum_congr rfl fun k _ => congrArg v
    (funext fun a => Fin.ext (by match a with | ⟨0, _⟩ => rfl | ⟨1, _⟩ => rfl))

/-- A [2048, 1024] matrix's row minima from +∞, kept as a column: at (r, 0) the fold of `min` over row `r`. -/
theorem rowMin_apply (v : FVec Ideal S2048x1024 .f32) (r : Fin 2048) (u : Fin 1) :
    shapeCast S2048x1 (multiReduction (F := Ideal) .minimumf [1] S2048 v 0x7F800000#32 reduces_S2048x1024_S2048 (.inl rfl) rfl)
      shapeCasts_S2048_S2048x1 (ix2 r u) = (Finset.univ : Finset (Fin 1024)).fold min posInf (fun c => v (ix2 r c)) := by
  refine (shapeCast_a_a1_apply _ _ r u).trans ?_
  refine (Ideal.multiReduction_minimumf_single v 0x7F800000#32 reduces_S2048x1024_S2048 (.inl rfl) rfl (ix1 r)).trans ?_
  exact Finset.fold_congr fun c _ => congrArg v
    (funext fun a => Fin.ext (by match a with | ⟨0, _⟩ => rfl | ⟨1, _⟩ => rfl))

/-! ## The body's values -/

/-- The tile of points with its leading unit axis dropped, at (r, k). -/
theorem pts_apply (x0 : FVec Ideal S1x2048x3 .f32) (r : Fin 2048) (k : Fin 3) :
    k0_pay2 (F := Ideal) x0 (ix2 r k) = x0 (ix3 (0 : Fin 1) r k) := by
  unfold k0_pay2
  exact shapeCast_1ab_ab_apply x0 _ r k

/-- The column of row norms at (r, 0) is |p_r|². -/
theorem rowNorm_apply (x0 : FVec Ideal S1x2048x3 .f32) (r : Fin 2048) (u : Fin 1) :
    k0_pay3 (F := Ideal) x0 (ix2 r u) = rowSq x0 r := by
  unfold k0_pay3; dsimp only
  refine (rowSum_apply _ r u).trans ?_
  unfold rowSq
  exact Finset.sum_congr rfl fun k _ => congrArg₂ (· * ·) (pts_apply x0 r k) (pts_apply x0 r k)

/-- The tile of vertices with its leading unit axis dropped, at (k, c). -/
theorem vts_apply (x1 : FVec Ideal S1x3x1024 .f32) (k : Fin 3) (c : Fin 1024) :
    shapeCast S3x1024 x1 shapeCasts_S1x3x1024_S3x1024 (ix2 k c) = x1 (ix3 (0 : Fin 1) k c) :=
  shapeCast_1ab_ab_apply x1 _ k c

/-- The row of column norms at (0, c) is |v_c|². -/
theorem colNorm_apply (x1 : FVec Ideal S1x3x1024 .f32) (c : Fin 1024) (u : Fin 1) :
    shapeCast S1x1024
      (multiReduction (F := Ideal) .add [0] S1024
        (mulf (F := Ideal) (shapeCast S3x1024 x1 shapeCasts_S1x3x1024_S3x1024) (shapeCast S3x1024 x1 shapeCasts_S1x3x1024_S3x1024))
        0x00000000#32 reduces_S3x1024_S1024 (.inl rfl) rfl)
      shapeCasts_S1024_S1x1024 (ix2 u c) = colSq x1 c := by
  refine (colSum_apply _ c u).trans ?_
  unfold colSq
  exact Finset.sum_congr rfl fun k _ => congrArg₂ (· * ·) (vts_apply x1 k c) (vts_apply x1 k c)

/-- The product's dimension numbers: rows × (three coordinates) times (three coordinates) × columns. -/
abbrev D : DotDims S2048x3 S3x1024 S2048x1024 := dot_S2048x3_S3x1024_S2048x1024_1_0_0_1_n_n

theorem lhs_row (i : S2048x1024.Idx) (q : D.contr.Idx) : (D.lhsIdx i q 0).val = (i 0).val := by
  unfold DotDims.lhsIdx
  rw [dif_neg (show ¬(0 : Fin S2048x3.rank) ∈ D.lhsBatch by decide),
    dif_pos (show (0 : Fin S2048x3.rank) ∈ D.lhsNonContracting by decide)]
  rfl
theorem lhs_coord (i : S2048x1024.Idx) (q : D.contr.Idx) : (D.lhsIdx i q 1).val = (q ⟨0, by decide⟩).val :=
  D.lhsIdx_val_of_single rfl i q
theorem rhs_coord (i : S2048x1024.Idx) (q : D.contr.Idx) : (D.rhsIdx i q 0).val = (q ⟨0, by decide⟩).val :=
  D.rhsIdx_val_of_single rfl i q
theorem rhs_col (i : S2048x1024.Idx) (q : D.contr.Idx) : (D.rhsIdx i q 1).val = (i 1).val := by
  unfold DotDims.rhsIdx
  rw [dif_neg (show ¬(1 : Fin S3x1024.rank) ∈ D.rhsBatch by decide),
    dif_pos (show (1 : Fin S3x1024.rank) ∈ D.rhsNonContracting by decide)]
  rfl

/-- The matrix product into a zero accumulator, at (r, c), is p_r · v_c: a sum over the three coordinates. -/
theorem prod_apply (x0 : FVec Ideal S1x2048x3 .f32) (x1 : FVec Ideal S1x3x1024 .f32) (r : Fin 2048) (c : Fin 1024) :
    matmul (F := Ideal) D none (k0_pay2 (F := Ideal) x0) (shapeCast S3x1024 x1 shapeCasts_S1x3x1024_S3x1024)
      (constant (F := Ideal) S2048x1024 .f32 0x00000000#32) (ix2 r c) = rowCol x0 x1 r c := by
  refine (Ideal.matmul_constant_zero_apply D none _ _ (ix2 r c)).trans ?_
  rw [← Equiv.sum_comp (contrEquiv1 D 3 rfl rfl).symm]
  unfold rowCol
  refine Finset.sum_congr rfl fun k _ => ?_
  have hk := contrEquiv1_symm_val D 3 rfl rfl k
  have el : D.lhsIdx (ix2 r c) ((contrEquiv1 D 3 rfl rfl).symm k) = ix2 r k := funext fun a => Fin.ext (by
    match a with
    | ⟨0, _⟩ => exact lhs_row _ _
    | ⟨1, _⟩ => exact (lhs_coord _ _).trans hk)
  have er : D.rhsIdx (ix2 r c) ((contrEquiv1 D 3 rfl rfl).symm k) = ix2 k c := funext fun a => Fin.ext (by
    match a with
    | ⟨0, _⟩ => exact (rhs_coord _ _).trans hk
    | ⟨1, _⟩ => exact rhs_col _ _)
  rw [el, er]
  exact congrArg₂ (· * ·) (pts_apply x0 r k) (vts_apply x1 k c)

/-- The new running minimum of row `r`: the smaller of the old one and the row's minimum over the tile. -/
theorem runMin_apply (x0 : FVec Ideal S1x2048x3 .f32) (x1 : FVec Ideal S1x3x1024 .f32) (xs : FVec Ideal S2048x1 .f32)
    (r : Fin 2048) (u : Fin 1) :
    k0_pay4 (F := Ideal) x0 x1 xs (ix2 r u)
      = min (xs (ix2 r u)) ((Finset.univ : Finset (Fin 1024)).fold min posInf (fun c => tileSq x0 x1 r c)) := by
  unfold k0_pay4; dsimp only
  refine (congrFun (shapeCast_self _ _) _).trans ?_
  show min (xs (ix2 r u)) (shapeCast S2048x1 _ shapeCasts_S2048_S2048x1 (ix2 r u)) = _
  refine congrArg (min _) ?_
  refine (rowMin_apply _ r u).trans ?_
  refine Finset.fold_congr fun c _ => ?_
  unfold tileSq
  refine congrArg₂ (· - ·) (congrArg₂ (· + ·) ?_ ?_) (congrArg (two * ·) ?_)
  · exact (broadcastTo_a1_ab_apply _ _ r c).trans (rowNorm_apply x0 r 0)
  · exact (broadcastTo_1b_ab_apply _ _ r c).trans (colNorm_apply x1 c 0)
  · exact prod_apply x0 x1 r c

/-- A number is below the new running minimum of row `r` exactly when it is below the old one, below +∞, and
    below every entry of row `r` of the tile of squared distances. -/
theorem le_runMin_iff (x0 : FVec Ideal S1x2048x3 .f32) (x1 : FVec Ideal S1x3x1024 .f32) (xs : FVec Ideal S2048x1 .f32)
    (r : Fin 2048) (u : Fin 1) (z : EReal) :
    z ≤ k0_pay4 (F := Ideal) x0 x1 xs (ix2 r u)
      ↔ z ≤ xs (ix2 r u) ∧ z ≤ posInf ∧ ∀ c : Fin 1024, z ≤ tileSq x0 x1 r c := by
  rw [runMin_apply, le_min_iff, Finset.le_fold_min]
  exact and_congr_right fun _ => and_congr_right fun _ =>
    ⟨fun h c => h c (Finset.mem_univ c), fun h c _ => h c⟩

/-- The value the running minima are reset to: +∞ in every row. -/
theorem reset_apply (r : Fin 2048) (u : Fin 1) : k0_pay1 (F := Ideal) (ix2 r u) = posInf := by
  unfold k0_pay1
  exact congrFun (shapeCast_self _ _) _

/-- The running minima written out as a [1, 2048, 1] block: row `r` at (0, r, 0). -/
theorem out_apply (v : FVec Ideal S2048x1 .f32) (w : Fin 1) (r : Fin 2048) (u : Fin 1) :
    k0_pay5 (F := Ideal) v (ix3 w r u) = v (ix2 r u) := by
  unfold k0_pay5
  exact shapeCast_ab_1ab_apply v _ w r u

/-- The flag written out for row `r`: 1 where |p_r|² is not 0, else 0. -/
theorem flag_apply (x0 : FVec Ideal S1x2048x3 .f32) (w : Fin 1) (r : Fin 2048) (u : Fin 1) :
    k0_pay6 (F := Ideal) x0 (ix3 w r u) = if rowSq x0 r = 0 then 0 else 1 := by
  unfold k0_pay6
  refine (shapeCast_ab_1ab_apply _ _ w r u).trans ?_
  show FloatOps.sitofp (F := Ideal) .f32 ((FloatOps.cmpf (F := Ideal) .one (k0_pay3 (F := Ideal) x0 (ix2 r u)) (Ideal.ofBits .f32 0x00000000#32)).setWidth 32) = _
  rw [rowNorm_apply, Ideal.ofBits_zero_f32]
  show ((((Ideal.cmp .one (rowSq x0 r) 0).setWidth 32).toInt : ℝ) : EReal) = _
  by_cases h : rowSq x0 r = 0
  · rw [if_pos h, h]; simp [Ideal.cmp]
  · rw [if_neg h]; simp [Ideal.cmp, h]

end Cert.KernelIdeal.Tile

end
-- ==== Proof.Blocks.lean ====
/-
  The two input blocks at a grid point, as entries of the arrays the region finds.

  The grid is 4 batches × 4 tiles of 2048 points × 8 tiles of 1024 vertices, walked with the vertex tile
  fastest: point `t` of the walk is batch `t / 32`, point tile `t / 8 % 4`, vertex tile `t % 8`. So the
  block of points at `t` holds, in row `r`, point `(t / 8 % 4)·2048 + r` of batch `t / 32`, and the block of
  vertices holds, in column `c`, vertex `(t % 8)·1024 + c` of that batch. Hence an entry of the tile of
  squared distances at `t` is the squared distance between that point and that vertex.
-/
import proofs.«137906_j28432683500146_1_alg».proof.Proof.Gen.KernelIdeal.Frame
import proofs.«137906_j28432683500146_1_alg».proof.Proof.Tile
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Tile Cert.Chamfer

variable (m : (ℓ : Loc nD τ sig) → Buf (Elt Ideal) ℓ)

/-- The point cloud as the region finds it: [batch, point, coordinate]. -/
abbrev pts (c : Dev nD) : Points := V m c main_v1
/-- The mesh as the region finds it: [batch, coordinate, vertex]. -/
abbrev vts (c : Dev nD) : Verts := V m c main_v0

/-- Where the block of points sits at walk position `t`: batch `t / 32`, point tile `t / 8 % 4`. -/
theorem ptsIndex : ∀ t : Fin cfg0.N, win0_0.index t 0 = t.val / 32 ∧ win0_0.index t 1 = t.val / 8 % 4 ∧ win0_0.index t 2 = 0 :=
  (by decide +kernel : ∀ t : Fin grid0.N, win0_0.index t 0 = t.val / 32 ∧ win0_0.index t 1 = t.val / 8 % 4 ∧ win0_0.index t 2 = 0)

/-- Where the block of vertices sits at walk position `t`: batch `t / 32`, vertex tile `t % 8`. -/
theorem vtsIndex : ∀ t : Fin cfg0.N, win0_1.index t 0 = t.val / 32 ∧ win0_1.index t 1 = 0 ∧ win0_1.index t 2 = t.val % 8 :=
  (by decide +kernel : ∀ t : Fin grid0.N, win0_1.index t 0 = t.val / 32 ∧ win0_1.index t 1 = 0 ∧ win0_1.index t 2 = t.val % 8)

/-- Row `r`, coordinate `k` of the block of points at `t` is point `(t / 8 % 4)·2048 + r` of batch `t / 32`. -/
theorem pts_block (c : Dev nD) (t : Fin cfg0.N) (r : Fin 2048) (k : Fin 3) (b : Fin 4) (i : Fin 8192)
    (hb : b.val = t.val / 32) (hi : i.val = t.val / 8 % 4 * 2048 + r.val) :
    (iblk m c 0 t : FVec Ideal S1x2048x3 .f32) (ix3 (0 : Fin 1) r k) = pts m c (ix3 b i k) := by
  unfold iblk
  rw [View.read_apply]
  show V m c main_v1 _ = V m c main_v1 _
  refine congrArg (V m c main_v1) (funext fun a => Fin.ext ?_)
  obtain ⟨h0, h1, h2⟩ := ptsIndex t
  match a with
  | ⟨0, _⟩ => show win0_0.index t 0 * 1 + 1 * 0 = b.val; rw [h0, hb]; omega
  | ⟨1, _⟩ => show win0_0.index t 1 * 2048 + 1 * r.val = i.val; rw [h1, hi]; omega
  | ⟨2, _⟩ => show win0_0.index t 2 * 3 + 1 * k.val = k.val; rw [h2]; omega

/-- Coordinate `k`, column `j` of the block of vertices at `t` is vertex `(t % 8)·1024 + j` of batch `t / 32`. -/
theorem vts_block (c : Dev nD) (t : Fin cfg0.N) (k : Fin 3) (j : Fin 1024) (b : Fin 4) (n : Fin 8192)
    (hb : b.val = t.val / 32) (hn : n.val = t.val % 8 * 1024 + j.val) :
    (iblk m c 1 t : FVec Ideal S1x3x1024 .f32) (ix3 (0 : Fin 1) k j) = vts m c (ix3 b k n) := by
  unfold iblk
  rw [View.read_apply]
  show V m c main_v0 _ = V m c main_v0 _
  refine congrArg (V m c main_v0) (funext fun a => Fin.ext ?_)
  obtain ⟨h0, h1, h2⟩ := vtsIndex t
  match a with
  | ⟨0, _⟩ => show win0_1.index t 0 * 1 + 1 * 0 = b.val; rw [h0, hb]; omega
  | ⟨1, _⟩ => show win0_1.index t 1 * 3 + 1 * k.val = k.val; rw [h1]; omega
  | ⟨2, _⟩ => show win0_1.index t 2 * 1024 + 1 * j.val = n.val; rw [h2, hn]; omega

/-- Entry (r, j) of the tile of squared distances at `t` is the squared distance between that point and that
    vertex. -/
theorem tileSq_eq (c : Dev nD) (t : Fin cfg0.N) (r : Fin 2048) (j : Fin 1024) (b : Fin 4) (i n : Fin 8192)
    (hb : b.val = t.val / 32) (hi : i.val = t.val / 8 % 4 * 2048 + r.val) (hn : n.val = t.val % 8 * 1024 + j.val) :
    tileSq (iblk m c 0 t) (iblk m c 1 t) r j = sqDist (pts m c) (vts m c) b i n := by
  unfold tileSq sqDist rowSq colSq rowCol sqP sqV dotPV
  exact congrArg₂ (· - ·)
    (congrArg₂ (· + ·)
      (Finset.sum_congr rfl fun k _ => congrArg₂ (· * ·) (pts_block m c t r k b i hb hi) (pts_block m c t r k b i hb hi))
      (Finset.sum_congr rfl fun k _ => congrArg₂ (· * ·) (vts_block m c t k j b n hb hn) (vts_block m c t k j b n hb hn)))
    (congrArg (two * ·)
      (Finset.sum_congr rfl fun k _ => congrArg₂ (· * ·) (pts_block m c t r k b i hb hi) (vts_block m c t k j b n hb hn)))

/-- |p_r|² of row `r` of the block of points at `t`. -/
theorem rowSq_eq (c : Dev nD) (t : Fin cfg0.N) (r : Fin 2048) (b : Fin 4) (i : Fin 8192)
    (hb : b.val = t.val / 32) (hi : i.val = t.val / 8 % 4 * 2048 + r.val) :
    rowSq (iblk m c 0 t) r = sqP (pts m c) b i := by
  unfold rowSq sqP
  exact Finset.sum_congr rfl fun k _ => congrArg₂ (· * ·) (pts_block m c t r k b i hb hi) (pts_block m c t r k b i hb hi)

end Cert.KernelIdeal.Blocks

end
-- ==== Proof.Scratch.lean ====
/-
  The running minima across a run of eight grid points.

  The eight points `8q, …, 8q + 7` of the walk share one block of 2048 points and visit the eight tiles of
  1024 vertices in order. After the point at offset `n % 8` of its run, row `r` of the column of running
  minima is the minimum, from +∞, of the squared distances from that row's point to the first
  `(n % 8 + 1)·1024` vertices — stated by lower bounds: a number is below it exactly when it is below +∞
  and below each of those squared distances. The first point of a run starts from the reset column, every
  other point from what the point before left; the invariant is carried along the walk.
-/
import proofs.«137906_j28432683500146_1_alg».proof.Proof.Gen.KernelIdeal.Frame
import proofs.«137906_j28432683500146_1_alg».proof.Proof.Pieces
import proofs.«137906_j28432683500146_1_alg».proof.Proof.Blocks

noncomputable section

namespace Cert.KernelIdeal.Scratch

open Idealize.ShloMosaic Idealize.ShloMosaic.TcCoe Idealize.SL.Sem Idealize.ShloMosaic.ValueIdx
open Cert.KernelIdeal Cert.KernelIdeal.Gen Cert.KernelIdeal.Tile Cert.KernelIdeal.Pieces Cert.KernelIdeal.Blocks Cert.Chamfer

variable (m : (ℓ : Loc nD τ sig) → Buf (Elt Ideal) ℓ)

/-- One point's step, in terms of the arrays: below the new minimum of row `r` means below the old one, below
    +∞, and below the squared distances to the vertices of this point's tile. -/
theorem le_step_iff (c : Dev nD) (n : ℕ) (hn : n < cfg0.N) (r : Fin 2048) (b : Fin 4) (i : Fin 8192)
    (hb : b.val = n / 32) (hi : i.val = n / 8 % 4 * 2048 + r.val) (xs : FVec Ideal S2048x1 .f32) (z : EReal) :
    z ≤ k0_pay4 (F := Ideal) (iblk m c 0 ⟨n, hn⟩) (iblk m c 1 ⟨n, hn⟩) xs (ix2 r (0 : Fin 1))
      ↔ z ≤ xs (ix2 r (0 : Fin 1)) ∧ z ≤ posInf
        ∧ ∀ j : Fin 8192, n % 8 * 1024 ≤ j.val → j.val < (n % 8 + 1) * 1024 → z ≤ sqDist (pts m c) (vts m c) b i j := by
  have hN : n < 128 := lt_of_lt_of_eq hn (show cfg0.N = 128 from N_0)
  rw [le_runMin_iff (iblk m c 0 ⟨n, hn⟩) (iblk m c 1 ⟨n, hn⟩) xs r 0 z]
  refine and_congr_right fun _ => and_congr_right fun _ => ⟨fun h j hj1 hj2 => ?_, fun h jj => ?_⟩
  · have hlt : j.val - n % 8 * 1024 < 1024 := by omega
    exact le_of_le_of_eq (h ⟨j.val - n % 8 * 1024, hlt⟩)
      (tileSq_eq m c ⟨n, hn⟩ r ⟨j.val - n % 8 * 1024, hlt⟩ b i j hb hi
        (by show j.val = n % 8 * 1024 + (j.val - n % 8 * 1024); omega))
  · have hj := jj.isLt
    have hlt : n % 8 * 1024 + jj.val < 8192 := by omega
    exact le_of_le_of_eq
      (h ⟨n % 8 * 1024 + jj.val, hlt⟩ (by show n % 8 * 1024 ≤ n % 8 * 1024 + jj.val; omega)
        (by show n % 8 * 1024 + jj.val < (n % 8 + 1) * 1024; omega))
      (tileSq_eq m c ⟨n, hn⟩ r jj b i ⟨n % 8 * 1024 + jj.val, hlt⟩ hb hi rfl).symm

/-- THE INVARIANT: after walk position `n`, row `r` of the running minima bounds below exactly the numbers
    that are below +∞ and below the squared distances to the first `(n % 8 + 1)·1024` vertices. -/
theorem le_runMin_inv (c : Dev nD) : ∀ (n : ℕ) (hn : n < cfg0.N) (r : Fin 2048) (b : Fin 4) (i : Fin 8192),
    b.val = n / 32 → i.val = n / 8 % 4 * 2048 + r.val → ∀ z : EReal,
    (z ≤ (outsAt0 m c n hn).2.2 (ix2 r (0 : Fin 1))
      ↔ z ≤ posInf ∧ ∀ j : Fin 8192, j.val < (n % 8 + 1) * 1024 → z ≤ sqDist (pts m c) (vts m c) b i j) := by
  intro n
  induction n using Nat.strong_induction_on with
  | _ n ih =>
    intro hn r b i hb hi z
    have hN : n < 128 := lt_of_lt_of_eq hn (show cfg0.N = 128 from N_0)
    by_cases h0 : n % 8 = 0
    · have h1 : ¬n % 8 = 7 := by omega
      rw [outsAt0_A m c ⟨n, hn⟩ h0 h1]
      dsimp only
      rw [scratch_first, le_step_iff m c n hn r b i hb hi _ z, reset_apply]
      constructor
      · rintro ⟨hz, -, h⟩
        exact ⟨hz, fun j hj => h j (by omega) hj⟩
      · rintro ⟨hz, h⟩
        exact ⟨hz, hz, fun j _ hj => h j hj⟩
    · have hprev : ∀ (hp : n - 1 < cfg0.N), (z ≤ (outsAt0 m c (n - 1) hp).2.2 (ix2 r (0 : Fin 1))
          ↔ z ≤ posInf ∧ ∀ j : Fin 8192, j.val < n % 8 * 1024 → z ≤ sqDist (pts m c) (vts m c) b i j) := fun hp => by
        rw [ih (n - 1) (by omega) hp r b i (by omega) (by omega) z]
        have e : ((n - 1) % 8 + 1) * 1024 = n % 8 * 1024 := by omega
        rw [e]
      have close : (z ≤ posInf ∧ ∀ j : Fin 8192, j.val < n % 8 * 1024 → z ≤ sqDist (pts m c) (vts m c) b i j)
            ∧ z ≤ posInf
            ∧ (∀ j : Fin 8192, n % 8 * 1024 ≤ j.val → j.val < (n % 8 + 1) * 1024 → z ≤ sqDist (pts m c) (vts m c) b i j)
          ↔ z ≤ posInf ∧ ∀ j : Fin 8192, j.val < (n % 8 + 1) * 1024 → z ≤ sqDist (pts m c) (vts m c) b i j := by
        constructor
        · rintro ⟨⟨hz, hA⟩, -, hB⟩
          refine ⟨hz, fun j hj => ?_⟩
          by_cases hlt : j.val < n % 8 * 1024
          · exact hA j hlt
          · exact hB j (by omega) hj
        · rintro ⟨hz, h⟩
          exact ⟨⟨hz, fun j hj => h j (by omega)⟩, hz, fun j _ hj => h j hj⟩
      by_cases h1 : n % 8 = 7
      · rw [outsAt0_C m c ⟨n, hn⟩ h0 h1]
        dsimp only
        rw [scratch_last, le_step_iff m c n hn r b i hb hi _ z, hprev]
        exact close
      · rw [outsAt0_B m c ⟨n, hn⟩ h0 h1]
        dsimp only
        rw [scratch_middle, le_step_iff m c n hn r b i hb hi _ z, hprev]
        exact close

end Cert.KernelIdeal.Scratch

end
-- ==== Proof.Final.lean ====
/-
  The two output arrays after the region.

  Each output block is written back once, at the last point of its run of eight, and the sixteen blocks
  tile the [4, 8192, 1] array. At that point the column of running minima has seen all 8192 vertices, so
  the block of nearest squared distances is, row by row, the point's nearest squared distance; the block
  of flags is, row by row, 1 where the point is not the origin. Hence the arrays end holding those two
  functions of the point cloud and the mesh as the region finds them.
-/
import proofs.«137906_j28432683500146_1_alg».proof.Proof.Gen.KernelIdeal.Frame
import proofs.«137906_j28432683500146_1_alg».proof.Proof.Scratch
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Pieces Cert.KernelIdeal.Blocks
open Cert.KernelIdeal.Scratch Cert.Chamfer

variable (m : (ℓ : Loc nD τ sig) → Buf (Elt Ideal) ℓ)

/-- The array of nearest squared distances, [4, 8192, 1]. -/
def distArr (c : Dev nD) : FVec Ideal S4x8192x1 .f32 := fun idx => nearest (pts m c) (vts m c) (idx 0) (idx 1)
/-- The array of flags, [4, 8192, 1]. -/
def flagArr (c : Dev nD) : FVec Ideal S4x8192x1 .f32 := fun idx => present (pts m c) (idx 0) (idx 1)

/-! ## What the last point of a run leaves -/

/-- After the last point of a run the running minimum of row `r` is the point's nearest squared distance:
    all 8192 vertices have been seen. -/
theorem runMin_last (c : Dev nD) (t : Fin cfg0.N) (h7 : t.val % 8 = 7) (r : Fin 2048) (b : Fin 4) (i : Fin 8192)
    (hb : b.val = t.val / 32) (hi : i.val = t.val / 8 % 4 * 2048 + r.val) :
    (outsAt0 m c t.val t.isLt).2.2 (ix2 r (0 : Fin 1)) = nearest (pts m c) (vts m c) b i := by
  refine eq_of_forall_le_iff' fun z => ?_
  rw [le_runMin_inv m c t.val t.isLt r b i hb hi z, le_nearest_iff]
  refine and_congr_right fun _ => ⟨fun h j => h j (by have := j.isLt; omega), fun h j _ => h j⟩

/-- The block of nearest squared distances the last point leaves is its column of running minima, written out. -/
theorem dist_of_runMin (c : Dev nD) (t : Fin cfg0.N) (h0 : ¬t.val % 8 = 0) (h7 : t.val % 8 = 7) :
    (outsAt0 m c t.val t.isLt).1 = k0_pay5 (F := Ideal) ((outsAt0 m c t.val t.isLt).2.2) := by
  rw [outsAt0_C m c t h0 h7]
  dsimp only
  rw [dist_last, scratch_last]

/-- The block of flags the last point leaves. -/
theorem flag_of_tile (c : Dev nD) (t : Fin cfg0.N) (h0 : ¬t.val % 8 = 0) (h7 : t.val % 8 = 7) :
    (outsAt0 m c t.val t.isLt).2.1 = k0_pay6 (F := Ideal) (iblk m c 0 t) := by
  rw [outsAt0_C m c t h0 h7]
  dsimp only
  rw [flag_last]

/-! ## Where the output blocks sit -/

theorem distIndex : ∀ t : Fin cfg0.N, win0_2.index t 0 = t.val / 32 ∧ win0_2.index t 1 = t.val / 8 % 4 ∧ win0_2.index t 2 = 0 :=
  (by decide +kernel : ∀ t : Fin grid0.N, win0_2.index t 0 = t.val / 32 ∧ win0_2.index t 1 = t.val / 8 % 4 ∧ win0_2.index t 2 = 0)
theorem flagIndex : ∀ t : Fin cfg0.N, win0_3.index t 0 = t.val / 32 ∧ win0_3.index t 1 = t.val / 8 % 4 ∧ win0_3.index t 2 = 0 :=
  (by decide +kernel : ∀ t : Fin grid0.N, win0_3.index t 0 = t.val / 32 ∧ win0_3.index t 1 = t.val / 8 % 4 ∧ win0_3.index t 2 = 0)

/-- WHAT A FLUSHING POINT WRITES BACK into the array of nearest squared distances is its block of that array. -/
theorem flushed_dist (c : Dev nD) (t : Fin cfg0.N) (hf : (cfg0.win 2).flush t = true) :
    (dats m 0 c).flushed 2 t = ((cfg0.win 2).blk t).view.read (Elt Ideal) (distArr m c) := by
  have h7 : t.val % 8 = 7 := (flush0_2 t).mp hf
  have h0 : ¬t.val % 8 = 0 := by omega
  obtain ⟨e0, e1, e2⟩ := distIndex t
  show (cfg0.win 2).cut (grid0.coords t) ((dats m 0 c).after 2 t) = _
  rw [after0_2, dist_of_runMin m c t h0 h7]
  funext y
  obtain ⟨w, r, u, rfl⟩ : ∃ (w : Fin 1) (r : Fin 2048) (u : Fin 1), y = ix3 w r u := ⟨y 0, y 1, y 2, eq_ix3 y⟩
  obtain rfl : u = 0 := Subsingleton.elim _ _
  have hw := w.isLt
  show k0_pay5 (F := Ideal) ((outsAt0 m c t.val t.isLt).2.2) (ix3 w r 0) = distArr m c (((cfg0.win 2).blk t).view.emb (ix3 w r 0))
  rw [out_apply]
  unfold distArr
  exact runMin_last m c t h7 r _ _
    (by show win0_2.index t 0 * 1 + 1 * w.val = t.val / 32; rw [e0]; omega)
    (by show win0_2.index t 1 * 2048 + 1 * r.val = t.val / 8 % 4 * 2048 + r.val; rw [e1]; omega)

/-- WHAT A FLUSHING POINT WRITES BACK into the array of flags is its block of that array. -/
theorem flushed_flag (c : Dev nD) (t : Fin cfg0.N) (hf : (cfg0.win 3).flush t = true) :
    (dats m 0 c).flushed 3 t = ((cfg0.win 3).blk t).view.read (Elt Ideal) (flagArr m c) := by
  have h7 : t.val % 8 = 7 := (flush0_3 t).mp hf
  have h0 : ¬t.val % 8 = 0 := by omega
  obtain ⟨e0, e1, e2⟩ := flagIndex t
  show (cfg0.win 3).cut (grid0.coords t) ((dats m 0 c).after 3 t) = _
  rw [after0_3, flag_of_tile m c t h0 h7]
  funext y
  obtain ⟨w, r, u, rfl⟩ : ∃ (w : Fin 1) (r : Fin 2048) (u : Fin 1), y = ix3 w r u := ⟨y 0, y 1, y 2, eq_ix3 y⟩
  have hw := w.isLt
  show k0_pay6 (F := Ideal) (iblk m c 0 t) (ix3 w r u) = flagArr m c (((cfg0.win 3).blk t).view.emb (ix3 w r u))
  rw [flag_apply]
  unfold flagArr present
  rw [rowSq_eq m c t r (((cfg0.win 3).blk t).view.emb (ix3 w r u) 0) (((cfg0.win 3).blk t).view.emb (ix3 w r u) 1)
    (by show win0_3.index t 0 * 1 + 1 * w.val = t.val / 32; rw [e0]; omega)
    (by show win0_3.index t 1 * 2048 + 1 * r.val = t.val / 8 % 4 * 2048 + r.val; rw [e1]; omega)]

/-! ## The blocks tile the arrays -/

theorem mem_blk_dist (t : Fin cfg0.N) (i : S4x8192x1.Idx) :
    i ∈ ((cfg0.win 2).blk t).view.set ↔ ∀ a : Fin 3, win0_2.index t a * S1x2048x1.size a ≤ (i a).val
      ∧ (i a).val < win0_2.index t a * S1x2048x1.size a + S1x2048x1.size a := by
  show i ∈ ((View.whole main_v2_0).slice (win0_2.rect t)).set ↔ _
  rw [View.set_slice_whole, Rect.mem_set_unit]
  exact Iff.rfl

theorem mem_blk_flag (t : Fin cfg0.N) (i : S4x8192x1.Idx) :
    i ∈ ((cfg0.win 3).blk t).view.set ↔ ∀ a : Fin 3, win0_3.index t a * S1x2048x1.size a ≤ (i a).val
      ∧ (i a).val < win0_3.index t a * S1x2048x1.size a + S1x2048x1.size a := by
  show i ∈ ((View.whole main_v2_1).slice (win0_3.rect t)).set ↔ _
  rw [View.set_slice_whole, Rect.mem_set_unit]
  exact Iff.rfl

/-- Entry (b, i, 0) lies in the block written back at the last point of the run of batch `b`, point tile
    `i / 2048`: walk position `32·b + 8·(i / 2048) + 7`. -/
theorem cover_dist (i : S4x8192x1.Idx) :
    ∃ t : Fin cfg0.N, (cfg0.win 2).flush t = true ∧ i ∈ ((cfg0.win 2).blk t).view.set := by
  have hb : (i 0).val < 4 := (i 0).isLt
  have hm : (i 1).val < 8192 := (i 1).isLt
  have hu : (i 2).val < 1 := (i 2).isLt
  obtain ⟨n, hn⟩ : ∃ n, n = (i 0).val * 32 + (i 1).val / 2048 * 8 + 7 := ⟨_, rfl⟩
  have hlt : n < cfg0.N := lt_of_lt_of_eq (by omega : n < 128) (show cfg0.N = 128 from N_0).symm
  obtain ⟨e0, e1, e2⟩ := distIndex ⟨n, hlt⟩
  refine ⟨⟨n, hlt⟩, (flush0_2 _).mpr (by show n % 8 = 7; omega), ?_⟩
  rw [mem_blk_dist]
  intro a
  match a with
  | ⟨0, _⟩ => show win0_2.index ⟨n, hlt⟩ 0 * 1 ≤ (i 0).val ∧ (i 0).val < win0_2.index ⟨n, hlt⟩ 0 * 1 + 1
              rw [e0]; show n / 32 * 1 ≤ (i 0).val ∧ (i 0).val < n / 32 * 1 + 1; omega
  | ⟨1, _⟩ => show win0_2.index ⟨n, hlt⟩ 1 * 2048 ≤ (i 1).val ∧ (i 1).val < win0_2.index ⟨n, hlt⟩ 1 * 2048 + 2048
              rw [e1]; show n / 8 % 4 * 2048 ≤ (i 1).val ∧ (i 1).val < n / 8 % 4 * 2048 + 2048; omega
  | ⟨2, _⟩ => show win0_2.index ⟨n, hlt⟩ 2 * 1 ≤ (i 2).val ∧ (i 2).val < win0_2.index ⟨n, hlt⟩ 2 * 1 + 1
              rw [e2]; omega

theorem cover_flag (i : S4x8192x1.Idx) :
    ∃ t : Fin cfg0.N, (cfg0.win 3).flush t = true ∧ i ∈ ((cfg0.win 3).blk t).view.set := by
  have hb : (i 0).val < 4 := (i 0).isLt
  have hm : (i 1).val < 8192 := (i 1).isLt
  have hu : (i 2).val < 1 := (i 2).isLt
  obtain ⟨n, hn⟩ : ∃ n, n = (i 0).val * 32 + (i 1).val / 2048 * 8 + 7 := ⟨_, rfl⟩
  have hlt : n < cfg0.N := lt_of_lt_of_eq (by omega : n < 128) (show cfg0.N = 128 from N_0).symm
  obtain ⟨e0, e1, e2⟩ := flagIndex ⟨n, hlt⟩
  refine ⟨⟨n, hlt⟩, (flush0_3 _).mpr (by show n % 8 = 7; omega), ?_⟩
  rw [mem_blk_flag]
  intro a
  match a with
  | ⟨0, _⟩ => show win0_3.index ⟨n, hlt⟩ 0 * 1 ≤ (i 0).val ∧ (i 0).val < win0_3.index ⟨n, hlt⟩ 0 * 1 + 1
              rw [e0]; show n / 32 * 1 ≤ (i 0).val ∧ (i 0).val < n / 32 * 1 + 1; omega
  | ⟨1, _⟩ => show win0_3.index ⟨n, hlt⟩ 1 * 2048 ≤ (i 1).val ∧ (i 1).val < win0_3.index ⟨n, hlt⟩ 1 * 2048 + 2048
              rw [e1]; show n / 8 % 4 * 2048 ≤ (i 1).val ∧ (i 1).val < n / 8 % 4 * 2048 + 2048; omega
  | ⟨2, _⟩ => show win0_3.index ⟨n, hlt⟩ 2 * 1 ≤ (i 2).val ∧ (i 2).val < win0_3.index ⟨n, hlt⟩ 2 * 1 + 1
              rw [e2]; omega

/-! ## The arrays after the region -/

theorem final_dist (c : Dev nD) : (dats m 0 c).arrAt 2 cfg0.N = distArr m c :=
  (dats m 0 c).arrAt_eq_of_cover 2 (distArr m c) (flushed_dist m c) cover_dist

theorem final_flag (c : Dev nD) : (dats m 0 c).arrAt 3 cfg0.N = flagArr m c :=
  (dats m 0 c).arrAt_eq_of_cover 3 (flagArr m c) (flushed_flag m c) cover_flag

end Cert.KernelIdeal.Final

end
-- ==== Proof.Result.lean ====
/-
  The kernel program's result.

  After the region the program reshapes the two [4, 8192, 1] output arrays to [4, 8192] and averages:
  the mean over the batches of each batch's mean nearest squared distance over the points present. The
  region leaves those arrays holding the nearest squared distances and the flags (as functions of the point
  cloud and the mesh the region finds), and the point cloud and mesh it finds are the transposed second
  argument and the flattened first one. So every run ends with the result at `result`, and the arguments
  unchanged.
-/
import proofs.«137906_j28432683500146_1_alg».proof.Proof.Gen.KernelIdeal.Frame
import proofs.«137906_j28432683500146_1_alg».proof.Proof.Final
import Idealize.ShloMosaic.Lib.Pipeline.Value
import Idealize.ShloMosaic.Lib.StableHlo.Run

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks Cert.KernelIdeal.Final Cert.Chamfer

variable (m : (ℓ : Loc nD τ sig) → Buf (Elt Ideal) ℓ) (ρ : Dev nD → PrngReg)

/-- The point cloud the region finds is the second argument with its last two axes exchanged. -/
theorem pts_eq (c : Dev nD) :
    pts m c = transpose S4x8192x3 [0, 2, 1] (m ((c : Thread nD τ).loc main_arg1)) transposes_S4x3x8192_S4x8192x3_0_2_1 := by
  show StableHlo.after hostOps0 (fun b => m (c, b)) (Proc.devRef .tc main_v1) = _
  after_results <;> rfl

/-- The mesh the region finds is the first argument with its last two axes flattened. -/
theorem vts_eq (c : Dev nD) :
    vts m c = shapeCast S4x3x8192 (m ((c : Thread nD τ).loc main_arg0)) shapeCasts_S4x3x128x64_S4x3x8192 := by
  show StableHlo.after hostOps0 (fun b => m (c, b)) (Proc.devRef .tc main_v0) = _
  after_results <;> rfl

/-- The program's result: the averaging applied to the two output arrays, reshaped. -/
def result (c : Dev nD) : Buf (Elt Ideal) ((c : Thread nD τ).loc main_v10) :=
  meanOfMeans reducesTo_S4x8192_S4_d1 h_S_ reducesTo_S4_S_d0
    (shapeCast S4x8192 (distArr m c) shapeCasts_S4x8192x1_S4x8192)
    (shapeCast S4x8192 (flagArr m c) shapeCasts_S4x8192x1_S4x8192)

/-- The lines after the region compute it from the arrays the region leaves. -/
theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have e2 : (Pipeline.withArrays (cfgs 0).spec c (V0 m c) (fun w => (dats m 0 c).arrAt w (cfgs 0).N)
      (Proc.devRef .tc main_v2_0) : S4x8192x1.Idx → EReal) = distArr m c :=
    (Pipeline.withArrays_arr spec0 launch0.win.arr_inj c _ _ 2).trans (final_dist m c)
  have e3 : (Pipeline.withArrays (cfgs 0).spec c (V0 m c) (fun w => (dats m 0 c).arrAt w (cfgs 0).N)
      (Proc.devRef .tc main_v2_1) : S4x8192x1.Idx → EReal) = flagArr m c :=
    (Pipeline.withArrays_arr spec0 launch0.win.arr_inj c _ _ 3).trans (final_flag m c)
  show meanOfMeans reducesTo_S4x8192_S4_d1 h_S_ reducesTo_S4_S_d0
      (shapeCast S4x8192 (Pipeline.withArrays (cfgs 0).spec c (V0 m c) (fun w => (dats m 0 c).arrAt w (cfgs 0).N)
        (Proc.devRef .tc main_v2_0) : S4x8192x1.Idx → EReal) shapeCasts_S4x8192x1_S4x8192)
      (shapeCast S4x8192 (Pipeline.withArrays (cfgs 0).spec c (V0 m c) (fun w => (dats m 0 c).arrAt w (cfgs 0).N)
        (Proc.devRef .tc main_v2_1) : S4x8192x1.Idx → EReal) shapeCasts_S4x8192x1_S4x8192) = _
  rw [e2, e3]
  rfl

/-- Every weakly fair execution ends with the result there and the two arguments as launched. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference, read against the specification.

  The reference transposes the point cloud to [batch, point, coordinate] and flattens the mesh to
  [batch, coordinate, vertex]; from there its [4, 8192, 8192] array of squared distances is, entry by
  entry, |p|² + |v|² − 2·(p · v) of those two arrays (`ref_sqDist`), its minimum over the vertex axis from
  +∞ the point's nearest squared distance (`ref_nearest`), and its flag — "not all three coordinates
  compare equal to 0", converted to a float — is 1 exactly where |p|² is not 0, because a sum of squares
  vanishes only when every term does (`ref_present`).
-/
import proofs.«137906_j28432683500146_1_alg».proof.Proof.Gen.ReferenceIdeal.Read
import proofs.«137906_j28432683500146_1_alg».proof.Proof.Spec
import proofs.«137906_j28432683500146_1_alg».proof.Proof.LibReduce

noncomputable section

namespace Cert.ReferenceIdeal.RefValue

open Idealize.ShloMosaic Idealize.ShloMosaic.ValueIdx
open Cert.ReferenceIdeal Cert.ReferenceIdeal.Gen Cert.ReferenceIdeal.Read Cert.Chamfer

variable (x0 : (⟨S4x3x128x64, .f32⟩ : BufTy).Contents (Elt Ideal)) (x1 : (⟨S4x3x8192, .f32⟩ : BufTy).Contents (Elt Ideal))

/-- The point cloud as the reference lays it out: [batch, point, coordinate]. -/
abbrev pts : Points := val_main_v2 (F := Ideal) x1
/-- The mesh as the reference lays it out: [batch, coordinate, vertex]. -/
abbrev vts : Verts := val_main_v0 (F := Ideal) x0

/-- The transposed mesh at (b, j, k) is the flattened mesh at (b, k, j). -/
theorem vtsT_apply (b : Fin 4) (j : Fin 8192) (k : Fin 3) :
    val_main_v1 (F := Ideal) x0 (ix3 b j k) = vts x0 (ix3 b k j) := by
  rw [val_main_v1_apply]
  exact congrArg _ (funext fun a => Fin.ext (by match a with | ⟨0, _⟩ => rfl | ⟨1, _⟩ => rfl | ⟨2, _⟩ => rfl))

/-- Entry (b, i, j) of the reference's array of squared distances. -/
theorem ref_sqDist (b : Fin 4) (i j : Fin 8192) :
    val_main_v19 (F := Ideal) x0 x1 (ix3 b i j) = sqDist (pts x1) (vts x0) b i j := by
  have e1 : ∀ k : Fin 3, idx_main_v8 (idx_main_v9 (idx_main_v13 (ix3 b i j))) k = ix3 b i k := fun k =>
    funext fun a => Fin.ext (by match a with | ⟨0, _⟩ => rfl | ⟨1, _⟩ => rfl | ⟨2, _⟩ => rfl)
  have e2 : ∀ k : Fin 3, idx_main_v11 (idx_main_v12 (idx_main_v14 (ix3 b i j))) k = ix3 b j k := fun k =>
    funext fun a => Fin.ext (by match a with | ⟨0, _⟩ => rfl | ⟨1, _⟩ => rfl | ⟨2, _⟩ => rfl)
  have e3 : ∀ k : Fin 3, lidx_main_v16 (ix3 b i j) k = ix3 b i k := fun k =>
    funext fun a => Fin.ext (by match a with | ⟨0, _⟩ => rfl | ⟨1, _⟩ => rfl | ⟨2, _⟩ => rfl)
  have e4 : ∀ k : Fin 3, ridx_main_v16 (ix3 b i j) k = ix3 b j k := fun k =>
    funext fun a => Fin.ext (by match a with | ⟨0, _⟩ => rfl | ⟨1, _⟩ => rfl | ⟨2, _⟩ => rfl)
  rw [val_main_v19_apply, val_main_v15_apply, val_main_v18_apply, val_main_v13_apply, val_main_v9_apply, val_main_v8_apply,
    val_main_v14_apply, val_main_v12_apply, val_main_v11_apply, val_main_v17_apply, val_main_v16_apply]
  simp only [e1, e2, e3, e4, val_main_v7_apply, val_main_v10_apply, vtsT_apply, val_main_cst_0_apply, val_main_cst_1_apply,
    val_main_cst_2_apply]
  show (Ideal.ofBits .f32 0x00000000#32 + _ + (Ideal.ofBits .f32 0x00000000#32 + _)) - Ideal.ofBits .f32 0x40000000#32 * _ = _
  rw [Ideal.ofBits_zero_f32, zero_add, zero_add]
  rfl

/-- The reference's minimum over the vertex axis is the point's nearest squared distance. -/
theorem ref_nearest (b : Fin 4) (i : Fin 8192) :
    val_main_v20 (F := Ideal) x0 x1 (ix2 b i) = nearest (pts x1) (vts x0) b i := by
  have hR : S4x8192x8192.Reduces [2] S4x8192 := by decide
  unfold val_main_v20
  refine (Ideal.hostReduce_minimumf_single _ _ reducesTo_S4x8192x8192_S4x8192_d2 hR h_S_ (ix2 b i)).trans ?_
  unfold nearest
  refine Finset.fold_congr fun j _ => ?_
  have e : hR.lift (ix2 b i) j = ix3 b i j :=
    funext fun a => Fin.ext (by match a with | ⟨0, _⟩ => rfl | ⟨1, _⟩ => rfl | ⟨2, _⟩ => rfl)
  exact (congrArg (val_main_v19 (F := Ideal) x0 x1) e).trans (ref_sqDist x0 x1 b i j)

/-- The reference's flag is 1 exactly where |p|² is not 0. -/
theorem ref_present (b : Fin 4) (i : Fin 8192) :
    val_main_v21 (F := Ideal) x1 (ix2 b i) = present (pts x1) b i := by
  have hR : S4x3x8192.Reduces [1] S4x8192 := by decide
  have key : val_main_v5 (F := Ideal) x1 (ix2 b i) = 1#1 ↔ sqP (pts x1) b i = 0 := by
    unfold val_main_v5
    rw [Host.reduce_andi_eq_one_iff_single _ _ reducesTo_S4x3x8192_S4x8192_d1 hR h_S_ (ix2 b i), sqP_eq_zero_iff]
    have e : ∀ k : Fin 3, hR.lift (ix2 b i) k = ix3 b k i := fun k =>
      funext fun a => Fin.ext (by match a with | ⟨0, _⟩ => rfl | ⟨1, _⟩ => rfl | ⟨2, _⟩ => rfl)
    have ep : ∀ k : Fin 3, pts x1 (ix3 b i k) = x1 (ix3 b k i) := fun k => by
      show val_main_v2 (F := Ideal) x1 (ix3 b i k) = _
      rw [val_main_v2_apply]
      exact congrArg _ (funext fun a => Fin.ext (by match a with | ⟨0, _⟩ => rfl | ⟨1, _⟩ => rfl | ⟨2, _⟩ => rfl))
    have ev : ∀ k : Fin 3, val_main_v4 (F := Ideal) x1 (ix3 b k i) = 1#1 ↔ x1 (ix3 b k i) = 0 := fun k => by
      rw [val_main_v4_apply, val_main_v3_apply, val_main_cst_apply]
      show Ideal.cmp .oeq (x1 (ix3 b k i)) (Ideal.ofBits .f32 0x00000000#32) = 1#1 ↔ _
      rw [Ideal.ofBits_zero_f32]
      by_cases hx : x1 (ix3 b k i) = 0
      · simp [Ideal.cmp, hx]
      · simp [Ideal.cmp, hx]
    constructor
    · rintro ⟨_, h⟩ k
      rw [ep k]
      exact (ev k).mp (by have := h k; rwa [e k] at this)
    · intro h
      refine ⟨rfl, fun k => ?_⟩
      rw [e k]
      exact (ev k).mpr (by rw [← ep k]; exact h k)
  rw [val_main_v21_apply, val_main_v6_apply]
  unfold present
  by_cases h : sqP (pts x1) b i = 0
  · rw [if_pos h, key.mpr h]
    show (((~~~(1#1 : BitVec 1)).toNat : ℝ) : EReal) = 0
    simp
  · rw [if_neg h, eq_zero_of_ne_one (mt key.mp h)]
    show (((~~~(0#1 : BitVec 1)).toNat : ℝ) : EReal) = 1
    simp

end Cert.ReferenceIdeal.RefValue

end
-- ==== Proof.Bridge.lean ====
/-
  The two programs compute one function of the arguments.

  Both end with the same averaging of two [4, 8192] arrays, so it is enough that those arrays agree entry
  by entry: the kernel's array of nearest squared distances against the reference's minimum over the
  vertex axis, and the kernel's flags against the reference's. Both pairs are the specification's
  `nearest` and `present` of the same point cloud and mesh — the second argument transposed and the first
  flattened, in both programs.
-/
import proofs.«137906_j28432683500146_1_alg».proof.Proof.Result
import proofs.«137906_j28432683500146_1_alg».proof.Proof.RefSide
import proofs.«137906_j28432683500146_1_alg».proof.Proof.LibColumn

noncomputable section

namespace Cert.Bridge

open Idealize.ShloMosaic Idealize.ShloMosaic.TcCoe Idealize.SL.Sem Idealize.ShloMosaic.ValueIdx
open Cert.Chamfer

/-- The kernel program's result is the reference's last stage at the same two arguments. -/
theorem result_eq (m : (ℓ : Loc Cert.KernelIdeal.nD Cert.KernelIdeal.τ Cert.KernelIdeal.sig) → Buf (Elt Ideal) ℓ)
    (c : Dev Cert.KernelIdeal.nD) :
    Cert.KernelIdeal.Result.result m c
      = Cert.ReferenceIdeal.Read.val_main_v27 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  have hp : Cert.KernelIdeal.Blocks.pts m c
      = Cert.ReferenceIdeal.RefValue.pts (m ((c.tc : Thread Cert.KernelIdeal.nD Cert.KernelIdeal.τ).loc Cert.KernelIdeal.main_arg1)) :=
    Cert.KernelIdeal.Result.pts_eq m c
  have hv : Cert.KernelIdeal.Blocks.vts m c
      = Cert.ReferenceIdeal.RefValue.vts (m ((c.tc : Thread Cert.KernelIdeal.nD Cert.KernelIdeal.τ).loc Cert.KernelIdeal.main_arg0)) :=
    Cert.KernelIdeal.Result.vts_eq m c
  have hr : Cert.ReferenceIdeal.Read.val_main_v27 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = meanOfMeans Cert.ReferenceIdeal.Gen.reducesTo_S4x8192_S4_d1 Cert.ReferenceIdeal.Gen.h_S_ Cert.ReferenceIdeal.Gen.reducesTo_S4_S_d0
          (Cert.ReferenceIdeal.Read.val_main_v20 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (Cert.ReferenceIdeal.Read.val_main_v21 (F := Ideal)
            (m ((c.tc : Thread Cert.KernelIdeal.nD Cert.KernelIdeal.τ).loc Cert.KernelIdeal.main_arg1))) := rfl
  rw [hr]
  unfold Cert.KernelIdeal.Result.result
  refine congrArg₂ (meanOfMeans _ _ _) ?_ ?_
  · funext idx
    obtain ⟨b, i, rfl⟩ : ∃ (b : Fin 4) (i : Fin 8192), idx = ix2 b i := ⟨idx 0, idx 1, eq_ix2 idx⟩
    refine (shapeCast_ab1_ab_apply _ _ b i).trans ?_
    rw [Cert.ReferenceIdeal.RefValue.ref_nearest]
    unfold Cert.KernelIdeal.Final.distArr
    show nearest (Cert.KernelIdeal.Blocks.pts m c) (Cert.KernelIdeal.Blocks.vts m c) b i = _
    rw [hp, hv]
  · funext idx
    obtain ⟨b, i, rfl⟩ : ∃ (b : Fin 4) (i : Fin 8192), idx = ix2 b i := ⟨idx 0, idx 1, eq_ix2 idx⟩
    refine (shapeCast_ab1_ab_apply _ _ b i).trans ?_
    rw [Cert.ReferenceIdeal.RefValue.ref_present]
    unfold Cert.KernelIdeal.Final.flagArr
    show present (Cert.KernelIdeal.Blocks.pts m c) b i = _
    rw [hp]

end Cert.Bridge

end
-- ==== Proof.lean ====
/-
  Both programs compute the mean, over four batches, of the mean squared distance from each point that is
  not the origin to its nearest mesh vertex.

  The kernel walks a grid of 4 batches × 4 tiles of 2048 points × 8 tiles of 1024 vertices, keeps a
  running minimum of |p|² + |v|² − 2·(p · v) per point across the eight vertex tiles, and writes the minima
  and the "not the origin" flags out at the last tile; the reference forms all 8192 × 8192 squared
  distances per batch and takes one minimum. On the extended reals a minimum taken tile by tile from +∞
  is the minimum over all vertices, and "|p|² ≠ 0" is "not all three coordinates are 0", so the two arrays
  agree entry by entry and the same averaging finishes both (Proof/Bridge.lean). The three programs run
  to completion leaving their arguments as launched; the idealization rewrote nothing.
-/
import proofs.«137906_j28432683500146_1_alg».proof.Defs
import proofs.«137906_j28432683500146_1_alg».proof.Proof.Gen.Kernel
import proofs.«137906_j28432683500146_1_alg».proof.Proof.Gen.Kernel.Skeleton
import proofs.«137906_j28432683500146_1_alg».proof.Proof.Gen.Kernel.Launch
import proofs.«137906_j28432683500146_1_alg».proof.Proof.Gen.Kernel.Points
import proofs.«137906_j28432683500146_1_alg».proof.Proof.Gen.Kernel.Frame
import proofs.«137906_j28432683500146_1_alg».proof.Proof.Gen.KernelIdeal
import proofs.«137906_j28432683500146_1_alg».proof.Proof.Gen.KernelIdeal.Skeleton
import proofs.«137906_j28432683500146_1_alg».proof.Proof.Gen.KernelIdeal.Launch
import proofs.«137906_j28432683500146_1_alg».proof.Proof.Gen.KernelIdeal.Points
import proofs.«137906_j28432683500146_1_alg».proof.Proof.Gen.KernelIdeal.Frame
import proofs.«137906_j28432683500146_1_alg».proof.Proof.Gen.ReferenceIdeal
import proofs.«137906_j28432683500146_1_alg».proof.Proof.Gen.Pre_finite_inputs
import proofs.«137906_j28432683500146_1_alg».proof.Proof.Gen.ReferenceIdeal.Run
import proofs.«137906_j28432683500146_1_alg».proof.Proof.Gen.ReferenceIdeal.Read
import proofs.«137906_j28432683500146_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same scalar. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
